-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S4x4096x64 .f32) (main_arg1 : FVec F S64 .f32) (main_arg2 : FVec F S64 .f32) (main_arg3 : FVec F S64x64 .f32) (main_arg4 : FVec F S64x64 .f32) (main_arg5 : FVec F S64x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩
abbrev S64x64x1 : Shape := ⟨3, ![64, 64, 1]⟩
abbrev S1x64x64 : Shape := ⟨3, ![1, 64, 64]⟩
abbrev S64x64x64 : Shape := ⟨3, ![64, 64, 64]⟩
abbrev S64x4096 : Shape := ⟨2, ![64, 4096]⟩
abbrev S64x1 : Shape := ⟨2, ![64, 1]⟩
abbrev S1x4096 : Shape := ⟨2, ![1, 4096]⟩
abbrev S1x64 : Shape := ⟨2, ![1, 64]⟩
abbrev S4x4096x4096 : Shape := ⟨3, ![4, 4096, 4096]⟩
abbrev S1x512x64 : Shape := ⟨3, ![1, 512, 64]⟩
abbrev S1x512x4096 : Shape := ⟨3, ![1, 512, 4096]⟩
abbrev S512x64 : Shape := ⟨2, ![512, 64]⟩
abbrev S512 : Shape := ⟨1, ![512]⟩
abbrev S512x1 : Shape := ⟨2, ![512, 1]⟩
abbrev S512x4096 : Shape := ⟨2, ![512, 4096]⟩

abbrev nBuf : Space → Nat
  | .hbm => 29
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S64x64x1, .f32⟩
  | .hbm, ⟨14, _⟩ => ⟨S1x64x64, .f32⟩
  | .hbm, ⟨15, _⟩ => ⟨S64x64x64, .f32⟩
  | .hbm, ⟨16, _⟩ => ⟨S64x64x64, .f32⟩
  | .hbm, ⟨17, _⟩ => ⟨S64x64x64, .f32⟩
  | .hbm, ⟨18, _⟩ => ⟨S64x4096, .f32⟩
  | .hbm, ⟨19, _⟩ => ⟨S64x1, .f32⟩
  | .hbm, ⟨20, _⟩ => ⟨S64x4096, .f32⟩
  | .hbm, ⟨21, _⟩ => ⟨S64x4096, .f32⟩
  | .hbm, ⟨22, _⟩ => ⟨S64x4096, .bf16⟩
  | .hbm, ⟨23, _⟩ => ⟨S64x64, .f32⟩
  | .hbm, ⟨24, _⟩ => ⟨S1x4096, .f32⟩
  | .hbm, ⟨25, _⟩ => ⟨S1x64, .f32⟩
  | .hbm, ⟨26, _⟩ => ⟨S1x4096, .f32⟩
  | .hbm, ⟨27, _⟩ => ⟨S1x4096, .f32⟩
  | .hbm, ⟨28, _⟩ => ⟨S4x4096x4096, .f32⟩
  | .local _ .vmem, ⟨0, _⟩ => ⟨S1x512x64, .f32⟩
  | .local _ .vmem, ⟨1, _⟩ => ⟨S1x512x64, .f32⟩
  | .local _ .vmem, ⟨2, _⟩ => ⟨S64x4096, .bf16⟩
  | .local _ .vmem, ⟨3, _⟩ => ⟨S1x4096, .f32⟩
  | .local _ .vmem, ⟨4, _⟩ => ⟨S1x512x4096, .f32⟩
  | .local _ .vmem, ⟨5, _⟩ => ⟨S1x512x4096, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64_S1x64x64_1_2 : S64x64.BroadcastsInDim S1x64x64 (![1, 2] : Fin 2 → Fin S1x64x64.rank)
  bcast_S64x64x1_S64x64x64_0_1_2 : S64x64x1.BroadcastsInDim S64x64x64 (![0, 1, 2] : Fin 3 → Fin S64x64x64.rank)
  bcast_S1x64x64_S64x64x64_0_1_2 : S1x64x64.BroadcastsInDim S64x64x64 (![0, 1, 2] : Fin 3 → Fin S64x64x64.rank)
  shapeCasts_S64x64x64_S64x4096 : S64x64x64.ShapeCasts S64x4096
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bitsLt_bf16_f32 : FTy.bits .bf16 < FTy.bits .f32
  shapeCasts_S64x64_S1x4096 : S64x64.ShapeCasts S1x4096
  shapeCasts_S64_S1x64 : S64.ShapeCasts S1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x64_S512 : S512x64.Reduces [1] S512
  shapeCasts_S512_S512x1 : S512.ShapeCasts S512x1
  broadcasts_S512x1_S512x64 : S512x1.Broadcasts S512x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S1x64_S64x4096_S1x4096_1_0_0_1_n_n_wf : DotDims.WF S1x64 S64x4096 S1x4096 [1] [0] [0] [1] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S4x4096x4096.size a
  hwx0_3 : ∀ i : grid0.Coords, EltTy.bits .f32 = 32 ∨ (Rect.block (s := S4x4096x4096) S1x512x4096.size (cc0_transform_3 i) (hinb0_3 i)).WholeWords (EltTy.packing .f32)

variable [Facts₀]

def dot_S1x64_S64x4096_S1x4096_1_0_0_1_n_n : DotDims S1x64 S64x4096 S1x4096 where
  lhsContracting := [1]
  rhsContracting := [0]
  lhsNonContracting := [0]
  rhsNonContracting := [1]
  lhsBatch := []
  rhsBatch := []
  wf := dot_S1x64_S64x4096_S1x4096_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S64 : Shape := ⟨1, ![64]⟩
abbrev S64x64 : Shape := ⟨2, ![64, 64]⟩
abbrev S_ : Shape := ⟨0, ![]⟩
abbrev S4x4096 : Shape := ⟨2, ![4, 4096]⟩
abbrev S4x4096x1 : Shape := ⟨3, ![4, 4096, 1]⟩
abbrev S1x1x64 : Shape := ⟨3, ![1, 1, 64]⟩
abbrev S4x4096x64x1 : Shape := ⟨4, ![4, 4096, 64, 1]⟩
abbrev S1x1x64x64 : Shape := ⟨4, ![1, 1, 64, 64]⟩
abbrev S4x4096x64x64 : Shape := ⟨4, ![4, 4096, 64, 64]⟩
abbrev S4x4096x4096 : Shape := ⟨3, ![4, 4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x64, .f32⟩
  | .hbm, ⟨22, _⟩ => ⟨S4x4096x64, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x64, .f32⟩
  | .hbm, ⟨28, _⟩ => ⟨S4x4096x64, .f32⟩
  | .hbm, ⟨29, _⟩ => ⟨S1x1x64, .f32⟩
  | .hbm, ⟨30, _⟩ => ⟨S4x4096x64, .f32⟩
  | .hbm, ⟨31, _⟩ => ⟨S4x4096x64, .f32⟩
  | .hbm, ⟨32, _⟩ => ⟨S1x1x64, .f32⟩
  | .hbm, ⟨33, _⟩ => ⟨S4x4096x64, .f32⟩
  | .hbm, ⟨34, _⟩ => ⟨S4x4096x64, .f32⟩
  | .hbm, ⟨35, _⟩ => ⟨S4x4096x64x1, .f32⟩
  | .hbm, ⟨36, _⟩ => ⟨S1x1x64x64, .f32⟩
  | .hbm, ⟨37, _⟩ => ⟨S4x4096x64x64, .f32⟩
  | .hbm, ⟨38, _⟩ => ⟨S4x4096x64x64, .f32⟩
  | .hbm, ⟨39, _⟩ => ⟨S4x4096x64x64, .f32⟩
  | .hbm, ⟨40, _⟩ => ⟨S64x64, .f32⟩
  | .hbm, ⟨41, _⟩ => ⟨S1x1x64x64, .f32⟩
  | .hbm, ⟨42, _⟩ => ⟨S4x4096x64x64, .f32⟩
  | .hbm, ⟨43, _⟩ => ⟨S4x4096x64x64, .f32⟩
  | .hbm, ⟨44, _⟩ => ⟨S4x4096x4096, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S4x4096x64_S4x4096x64x1_0_1_2 : S4x4096x64.BroadcastsInDim S4x4096x64x1 (![0, 1, 2] : Fin 3 → Fin S4x4096x64x1.rank)
  bcast_S64x64_S1x1x64x64_2_3 : S64x64.BroadcastsInDim S1x1x64x64 (![2, 3] : Fin 2 → Fin S1x1x64x64.rank)
  bcast_S4x4096x64x1_S4x4096x64x64_0_1_2_3 : S4x4096x64x1.BroadcastsInDim S4x4096x64x64 (![0, 1, 2, 3] : Fin 4 → Fin S4x4096x64x64.rank)
  bcast_S1x1x64x64_S4x4096x64x64_0_1_2_3 : S1x1x64x64.BroadcastsInDim S4x4096x64x64 (![0, 1, 2, 3] : Fin 4 → Fin S4x4096x64x64.rank)
  shapeCasts_S4x4096x64x64_S4x4096x4096 : S4x4096x64x64.ShapeCasts S4x4096x4096

variable [Facts₀]

class Facts : Prop extends Facts₀ where

variable [Facts]
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.RowNormProj.lean ====
/-
  A row-normalised feature, projected feature by feature.

  For a row of 64 extended reals, the row is centred by its mean, and each centred entry is scaled by the reciprocal
  square root of the mean of the squared centred entries plus a fixed positive constant. Each normalised feature `z f`
  is then scaled by `g f`, shifted by `b f`, and projected: output `(f, e)` is
  `(z f * g f + b f) * w f e + (pb f e + emb f e)`.

  The same output can be computed as a product of the row with a block-diagonal matrix whose `(k, (f, e))` entry is
  `[k = f] * w f e * g k`, plus a bias row `(pb f e + emb f e) + ∑ k, b k * ([k = f] * w f e)`. Only the term `k = f`
  of each sum survives (a product with zero is zero on the extended reals), and the two forms then agree by
  distributivity, which holds once every quantity involved is a real number.
-/
import Idealize.ShloMosaic.PureOps.Ideal
import Idealize.ShloMosaic.PureOps.Ideal.Laws

noncomputable section

namespace Cert.RowNormProj

open Idealize.ShloMosaic

/-! ## The two constants -/

/-- The pattern of `64.0` denotes the real 64. -/
theorem ofBits_64 : Ideal.ofBits .f32 0x42800000#32 = ((64 : ℝ) : EReal) := by
  simp [Ideal.ofBits, Ideal.ieee, -EReal.coe_mul]; norm_num

/-- The pattern of the variance offset denotes a positive real. -/
theorem ofBits_eps_pos : ∃ ε : ℝ, 0 < ε ∧ Ideal.ofBits .f32 0x3727C5AC#32 = (ε : EReal) := by
  refine ⟨_, ?_, by simp [Ideal.ofBits, Ideal.ieee, -EReal.coe_mul]; rfl⟩
  positivity

/-! ## The normalised row -/

/-- The mean of a row of 64 entries. -/
def mean (row : Fin 64 → EReal) : EReal :=
  Ideal.div (∑ k, row k) (Ideal.ofBits .f32 0x42800000#32)

/-- A row's entry less the row's mean. -/
def centred (row : Fin 64 → EReal) (k : Fin 64) : EReal := row k - mean row

/-- The reciprocal square root of the mean squared centred entry plus the offset. -/
def invStd (row : Fin 64 → EReal) : EReal :=
  Ideal.rsqrt (Ideal.div (∑ k, centred row k * centred row k) (Ideal.ofBits .f32 0x42800000#32)
    + Ideal.ofBits .f32 0x3727C5AC#32)

/-- The normalised entry. -/
def normed (row : Fin 64 → EReal) (k : Fin 64) : EReal := centred row k * invStd row

/-- A finite sum of reals, read on the extended reals, is the real sum. -/
theorem sum_coe {ι : Type} (s : Finset ι) (r : ι → ℝ) : ∑ k ∈ s, ((r k : ℝ) : EReal) = ((∑ k ∈ s, r k : ℝ) : EReal) := by
  classical
  induction s using Finset.induction_on with
  | empty => simp
  | insert a s ha ih => rw [Finset.sum_insert ha, Finset.sum_insert ha, ih, EReal.coe_add]

/-- The normalised entry of a row of reals is a real: the mean and the centred entries are real, the mean square is a
    nonnegative real, so the offset makes the argument of the reciprocal square root positive. -/
theorem normed_real (r : Fin 64 → ℝ) (k : Fin 64) : ∃ q : ℝ, normed (fun k => ((r k : ℝ) : EReal)) k = (q : EReal) := by
  obtain ⟨ε, hε, he⟩ := ofBits_eps_pos
  have hmean : mean (fun k => ((r k : ℝ) : EReal)) = (((∑ k, r k) * (1 / 64) : ℝ) : EReal) := by
    unfold mean
    rw [ofBits_64, Ideal.div_coe (by norm_num), sum_coe, ← EReal.coe_mul]
  have hc : ∀ k, centred (fun k => ((r k : ℝ) : EReal)) k = ((r k - (∑ k, r k) * (1 / 64) : ℝ) : EReal) := by
    intro k
    unfold centred
    rw [hmean, ← EReal.coe_sub]
  set d : Fin 64 → ℝ := fun k => r k - (∑ k, r k) * (1 / 64) with hd
  have hv : 0 ≤ (∑ k, d k * d k) * (1 / 64) :=
    mul_nonneg (Finset.sum_nonneg fun k _ => mul_self_nonneg (d k)) (by norm_num)
  have hpos : 0 < (∑ k, d k * d k) * (1 / 64) + ε := by linarith
  have hinv : invStd (fun k => ((r k : ℝ) : EReal)) = (((Real.sqrt ((∑ k, d k * d k) * (1 / 64) + ε))⁻¹ : ℝ) : EReal) := by
    unfold invStd
    simp only [hc]
    simp only [← EReal.coe_mul]
    rw [sum_coe, ofBits_64, Ideal.div_coe (by norm_num), he, ← EReal.coe_mul, ← EReal.coe_add, Ideal.rsqrt_coe,
      if_neg (not_lt.2 hpos.le), if_neg hpos.ne']
  refine ⟨d k * (Real.sqrt ((∑ k, d k * d k) * (1 / 64) + ε))⁻¹, ?_⟩
  unfold normed
  rw [hc, hinv, ← EReal.coe_mul]

/-! ## The two forms of the projection -/

/-- The indicator of the diagonal. -/
def diag (k f : Fin 64) : EReal := if k = f then 1 else 0

/-- The projection feature by feature. -/
def direct (z g b : Fin 64 → EReal) (w pb emb : Fin 64 → Fin 64 → EReal) (f e : Fin 64) : EReal :=
  (z f * g f + b f) * w f e + (pb f e + emb f e)

/-- The projection as a product with the block-diagonal matrix plus the folded bias row. -/
def blockDiag (z g b : Fin 64 → EReal) (w pb emb : Fin 64 → Fin 64 → EReal) (f e : Fin 64) : EReal :=
  (∑ k, z k * ((diag k f * w f e) * g k)) + ((pb f e + emb f e) + ∑ k, b k * (diag k f * w f e))

/-- Only the diagonal term of the matrix product survives. -/
theorem sum_diag_left (z g : Fin 64 → EReal) (c : EReal) (f : Fin 64) :
    ∑ k, z k * ((diag k f * c) * g k) = z f * (c * g f) := by
  rw [Finset.sum_eq_single f]
  · simp [diag]
  · intro k _ hk
    simp [diag, hk]
  · intro h; exact absurd (Finset.mem_univ f) h

/-- Only the diagonal term of the folded bias survives. -/
theorem sum_diag_right (b : Fin 64 → EReal) (c : EReal) (f : Fin 64) :
    ∑ k, b k * (diag k f * c) = b f * c := by
  rw [Finset.sum_eq_single f]
  · simp [diag]
  · intro k _ hk
    simp [diag, hk]
  · intro h; exact absurd (Finset.mem_univ f) h

/-- The two forms agree where the quantities at `(f, e)` are reals. -/
theorem blockDiag_eq_direct (z g b : Fin 64 → EReal) (w pb emb : Fin 64 → Fin 64 → EReal) (f e : Fin 64)
    (hz : ∃ q : ℝ, z f = q) (hg : ∃ q : ℝ, g f = q) (hb : ∃ q : ℝ, b f = q) (hw : ∃ q : ℝ, w f e = q)
    (hpb : ∃ q : ℝ, pb f e = q) (hemb : ∃ q : ℝ, emb f e = q) :
    blockDiag z g b w pb emb f e = direct z g b w pb emb f e := by
  obtain ⟨zr, hz⟩ := hz
  obtain ⟨gr, hg⟩ := hg
  obtain ⟨br, hb⟩ := hb
  obtain ⟨wr, hw⟩ := hw
  obtain ⟨pr, hpb⟩ := hpb
  obtain ⟨er, hemb⟩ := hemb
  unfold blockDiag direct
  rw [sum_diag_left, sum_diag_right, hz, hg, hb, hw, hpb, hemb]
  simp only [← EReal.coe_mul, ← EReal.coe_add]
  congr 1
  ring

end Cert.RowNormProj

end
-- ==== Proof.RowPayload.lean ====
/-
  The body's value at an index of its output block.

  One grid point holds a block of 512 rows of 64 entries. For each row the body computes the row's mean (a lane sum
  kept as a column, divided by 64), centres the row, computes the reciprocal square root of the mean squared centred
  entry plus the offset, and scales the centred row by it: the normalised row. The block's output at row `r`, column
  `j` is the product of the normalised row `r` with column `j` of the resident matrix (a sum over the 64 features)
  plus entry `j` of the resident bias row.
-/
import proofs.«177353_j5446018531779_2_alg».proof.Proof.Gen.KernelIdeal.Skeleton
import proofs.«177353_j5446018531779_2_alg».proof.Proof.LibKeepdims
import proofs.«177353_j5446018531779_2_alg».proof.Proof.LibPlainDot
import proofs.«177353_j5446018531779_2_alg».proof.Proof.RowNormProj
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowPayload

open Cert.KernelIdeal Cert.KernelIdeal.Gen Idealize.ShloMosaic
open Idealize.ShloMosaic.ValueIdx Cert.RowNormProj

/-! ## The stages of the normalisation, as arrays over the 512 × 64 block -/

/-- Row `r` of a 512 × 64 block, as a function of the feature. -/
def row (x : FVec Ideal S512x64 .f32) (r : Fin 512) : Fin 64 → EReal := fun k => x (ix2 r k)

/-- Each row's mean, spread along the row. -/
def meanArr (x : FVec Ideal S512x64 .f32) : FVec Ideal S512x64 .f32 :=
  broadcastTo S512x64
    (divf (shapeCast S512x1 (multiReduction .add [1] S512 x 0x00000000#32 reduces_S512x64_S512 (.inl rfl) rfl) shapeCasts_S512_S512x1)
      (broadcast S512x1 (Scalar.ofBits (F := Ideal) .f32 0x42800000#32)))
    broadcasts_S512x1_S512x64

/-- The centred block. -/
def centredArr (x : FVec Ideal S512x64 .f32) : FVec Ideal S512x64 .f32 := subf x (meanArr x)

/-- Each row's reciprocal standard deviation, spread along the row. -/
def invStdArr (x : FVec Ideal S512x64 .f32) : FVec Ideal S512x64 .f32 :=
  broadcastTo S512x64
    (rsqrt (addf
      (divf (shapeCast S512x1 (multiReduction .add [1] S512 (mulf (centredArr x) (centredArr x)) 0x00000000#32
              reduces_S512x64_S512 (.inl rfl) rfl) shapeCasts_S512_S512x1)
        (broadcast S512x1 (Scalar.ofBits (F := Ideal) .f32 0x42800000#32)))
      (broadcast S512x1 (Scalar.ofBits (F := Ideal) .f32 0x3727C5AC#32))))
    broadcasts_S512x1_S512x64

/-- The normalised block. -/
def normedArr (x : FVec Ideal S512x64 .f32) : FVec Ideal S512x64 .f32 := mulf (centredArr x) (invStdArr x)

/-- A reciprocal square root of an array, read at an index. -/
theorem rsqrt_apply {s : Shape} {φ : FTy} (a : FVec Ideal s φ) (i : s.Idx) : rsqrt a i = Ideal.rsqrt (a i) := rfl

theorem meanArr_apply (x : FVec Ideal S512x64 .f32) (r : Fin 512) (c : Fin 64) :
    meanArr x (ix2 r c) = mean (row x r) := by
  unfold meanArr
  rw [Cert.Keepdims.broadcastTo_a1_ab_apply, divf_apply, Cert.Keepdims.shapeCast_a_a1_apply, broadcast_apply]
  unfold mean
  refine congrArg (fun s : EReal => Ideal.div s (Ideal.ofBits .f32 0x42800000#32)) ?_
  exact Cert.Keepdims.laneSum_apply x reduces_S512x64_S512 (.inl rfl) rfl r

theorem centredArr_apply (x : FVec Ideal S512x64 .f32) (r : Fin 512) (c : Fin 64) :
    centredArr x (ix2 r c) = centred (row x r) c := by
  unfold centredArr
  rw [subf_apply, meanArr_apply]
  rfl

theorem invStdArr_apply (x : FVec Ideal S512x64 .f32) (r : Fin 512) (c : Fin 64) :
    invStdArr x (ix2 r c) = invStd (row x r) := by
  unfold invStdArr
  rw [Cert.Keepdims.broadcastTo_a1_ab_apply]
  rw [rsqrt_apply, addf_apply, divf_apply, Cert.Keepdims.shapeCast_a_a1_apply, broadcast_apply, broadcast_apply]
  unfold invStd
  refine congrArg (fun s : EReal => Ideal.rsqrt (Ideal.div s (Ideal.ofBits .f32 0x42800000#32) + Ideal.ofBits .f32 0x3727C5AC#32)) ?_
  refine (Cert.Keepdims.laneSum_apply (mulf (centredArr x) (centredArr x)) reduces_S512x64_S512 (.inl rfl) rfl r).trans ?_
  refine Finset.sum_congr rfl fun k _ => ?_
  rw [mulf_apply, centredArr_apply]

theorem normedArr_apply (x : FVec Ideal S512x64 .f32) (r : Fin 512) (c : Fin 64) :
    normedArr x (ix2 r c) = normed (row x r) c := by
  unfold normedArr
  rw [mulf_apply, centredArr_apply, invStdArr_apply]
  rfl

/-! ## The body's value -/

/-- The body's value is the normalised block times the resident matrix, plus the bias row spread over the rows. -/
theorem pay_eq (v0 : FVec Ideal S1x512x64 .f32) (v19 : FVec Ideal S64x4096 .bf16) (v22 : FVec Ideal S1x4096 .f32) :
    k0_pay1 (F := Ideal) v0 v19 v22
      = shapeCast S1x512x4096
          (addf
            (matmul dot_S512x64_S64x4096_S512x4096_1_0_0_1_n_n none
              (truncf .bf16 (normedArr (shapeCast S512x64 v0 shapeCasts_S1x512x64_S512x64)) bitsLt_bf16_f32)
              (shapeCast S64x4096 v19 shapeCasts_S64x4096_S64x4096)
              (constant S512x4096 .f32 0x00000000#32))
            (broadcastTo S512x4096 (shapeCast S1x4096 v22 shapeCasts_S1x4096_S1x4096) broadcasts_S1x4096_S512x4096))
          shapeCasts_S512x4096_S1x512x4096 := rfl

/-- The body's value at row `r`, column `j` of the block. -/
theorem pay_apply (v0 : FVec Ideal S1x512x64 .f32) (v19 : FVec Ideal S64x4096 .bf16) (v22 : FVec Ideal S1x4096 .f32)
    (u : Fin 1) (r : Fin 512) (j : Fin 4096) :
    k0_pay1 (F := Ideal) v0 v19 v22 (ix3 u r j)
      = (∑ k : Fin 64, normed (fun k' => v0 (ix3 (0 : Fin 1) r k')) k * v19 (ix2 k j)) + v22 (ix2 (0 : Fin 1) j) := by
  rw [pay_eq, shapeCast_ab_1ab_apply, addf_apply, broadcastTo_1b_ab_apply, shapeCast_self, shapeCast_self]
  refine congrArg (fun s : EReal => s + v22 (ix2 (0 : Fin 1) j)) ?_
  show FloatOps.matmul (DotDims.plain 512 64 4096) none _ _ (constant (⟨2, ![512, 4096]⟩ : Shape) .f32 0x00000000#32) (ix2 r j) = _
  rw [Cert.LibPlainDot.matmul_zero_apply]
  refine Finset.sum_congr rfl fun k _ => ?_
  show truncf .bf16 (normedArr (shapeCast S512x64 v0 shapeCasts_S1x512x64_S512x64)) bitsLt_bf16_f32 (ix2 r k) * v19 (ix2 k j) = _
  rw [truncf_apply, normedArr_apply]
  refine congrArg (fun z : Fin 64 → EReal => normed z k * v19 (ix2 k j)) ?_
  funext k'
  exact shapeCast_1ab_ab_apply v0 shapeCasts_S1x512x64_S512x64 r k'

end Cert.KernelIdeal.RowPayload

end
-- ==== Proof.WholeArray.lean ====
/-
  From the blocks to the whole output array.

  The output array `[4, 4096, 4096]` is written in 32 blocks of 512 rows: grid point `(p, q)` writes rows
  `q * 512 … q * 512 + 511` of slab `p`, all 4096 columns, from the input block of the same rows; the matrix and the
  bias row are resident (their one block is the whole array at every point). So the value written at row `n` of slab
  `p`, column `j`, depends on row `(p, n)` of the input only, and every index of the array lies in exactly the block of
  point `(p, n / 512)`: the array after the run is one function of the arrays the region found.
-/
import proofs.«177353_j5446018531779_2_alg».proof.Proof.Gen.KernelIdeal.Value
import proofs.«177353_j5446018531779_2_alg».proof.Proof.RowPayload
import Idealize.ShloMosaic.Lib.Pipeline.Value
import Idealize.ShloMosaic.Lib.ValueIdx

set_option maxRecDepth 16384

noncomputable section

namespace Cert.KernelIdeal.WholeArray

open Cert.KernelIdeal Cert.KernelIdeal.Gen Idealize.ShloMosaic Idealize.ShloMosaic.TcCoe Idealize.SL.Sem
open Idealize.ShloMosaic.Pipeline (Dat)
open Idealize.ShloMosaic.ValueIdx Cert.RowNormProj

/-- The output at slab `p`, row `n`, column `j`, from the input array, the matrix and the bias row. -/
def outAt (x : S4x4096x64.Idx → EReal) (W : S64x4096.Idx → EReal) (B : S1x4096.Idx → EReal)
    (p : Fin 4) (n : Fin 4096) (j : Fin 4096) : EReal :=
  (∑ k : Fin 64, normed (fun k' => x (ix3 p n k')) k * W (ix2 k j)) + B (ix2 (0 : Fin 1) j)

/-- The whole output array. -/
def outArr (x : S4x4096x64.Idx → EReal) (W : S64x4096.Idx → EReal) (B : S1x4096.Idx → EReal) : S4x4096x4096.Idx → EReal :=
  fun i => outAt x W B ⟨(i 0).val, (i 0).isLt⟩ ⟨(i 1).val, (i 1).isLt⟩ ⟨(i 2).val, (i 2).isLt⟩

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the input block moves with the output block on the slab and row axes, every
    other block index is zero, and the output's block indices stay in their ranges. -/
theorem index_facts : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 7 :=
  (by decide +kernel : ∀ t : Fin grid0.N, _)

/-- Every (slab, row-block) pair is some point's output block. -/
theorem index_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- What point `t` writes back is block `t` of the whole-array function of the arrays the region found. -/
theorem flushed_eq (c : Dev nD) (t : Fin cfg0.N) :
    (dats m 0 c).flushed 3 t
      = ((cfg0.win 3).blk t).view.read (Elt Ideal) (outArr (V m c main_arg0) (V m c main_v15) (V m c main_v20)) := by
  rw [Cert.KernelIdeal.Value.flushed3]
  unfold out0_3
  rw [View.canon_unit_zero zero3]
  simp only [View.ld_unit_zero (S := S1x512x64) zero3, View.ld_unit_zero (S := S64x4096) zero2, View.ld_unit_zero (S := S1x4096) zero2]
  obtain ⟨f0, f1, f2, f3, f4, f5, f6, f7, f8, f9⟩ := index_facts t
  funext y
  obtain ⟨u, r, j, rfl⟩ : ∃ (u : Fin 1) (r : Fin 512) (j : Fin 4096), y = ix3 u r j := ⟨y 0, y 1, y 2, eq_ix3 y⟩
  have hu : u.val = 0 := by omega
  have hr := r.isLt
  have hj := j.isLt
  show k0_pay1 (F := Ideal) (iblk m c 0 t) (iblk m c 1 t) (iblk m c 2 t) (ix3 u r j)
      = outArr (V m c main_arg0) (V m c main_v15) (V m c main_v20) (((cfg0.win 3).blk t).view.emb (ix3 u r j))
  refine (Cert.KernelIdeal.RowPayload.pay_apply (iblk m c 0 t) (iblk m c 1 t) (iblk m c 2 t) u r j).trans ?_
  have hemb : ((cfg0.win 3).blk t).view.emb (ix3 u r j)
      = ix3 (⟨win0_3.index t (0 : Fin 3), by omega⟩ : Fin 4) (⟨win0_3.index t (1 : Fin 3) * 512 + r.val, by omega⟩ : Fin 4096) j := by
    funext a; apply Fin.ext
    match a with
    | ⟨0, _⟩ => show win0_3.index t (0 : Fin 3) * 1 + 1 * u.val = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 4096 + 1 * j.val = j.val; omega
  rw [hemb]
  show _ = outAt (V m c main_arg0) (V m c main_v15) (V m c main_v20) _ _ j
  unfold outAt
  have hx : ∀ k' : Fin 64, iblk m c 0 t (ix3 (0 : Fin 1) r k')
      = V m c main_arg0 (ix3 (⟨win0_3.index t (0 : Fin 3), by omega⟩ : Fin 4) (⟨win0_3.index t (1 : Fin 3) * 512 + r.val, by omega⟩ : Fin 4096) k') := by
    intro k'
    have hk := k'.isLt
    show V m c main_arg0 (((cfg0.win 0).blk t).view.emb (ix3 (0 : Fin 1) r k')) = _
    refine congrArg (V m c main_arg0) ?_
    funext a; apply Fin.ext
    match a with
    | ⟨0, _⟩ => show win0_0.index t (0 : Fin 3) * 1 + 1 * 0 = win0_3.index t (0 : Fin 3); omega
    | ⟨1, _⟩ => show win0_0.index t (1 : Fin 3) * 512 + 1 * r.val = win0_3.index t (1 : Fin 3) * 512 + r.val; omega
    | ⟨2, _⟩ => show win0_0.index t (2 : Fin 3) * 64 + 1 * k'.val = k'.val; omega
  have hW : ∀ k : Fin 64, iblk m c 1 t (ix2 k j) = V m c main_v15 (ix2 k j) := by
    intro k
    have hk := k.isLt
    show V m c main_v15 (((cfg0.win 1).blk t).view.emb (ix2 k j)) = _
    refine congrArg (V m c main_v15) ?_
    funext a; apply Fin.ext
    match a with
    | ⟨0, _⟩ => show win0_1.index t (0 : Fin 2) * 64 + 1 * k.val = k.val; omega
    | ⟨1, _⟩ => show win0_1.index t (1 : Fin 2) * 4096 + 1 * j.val = j.val; omega
  have hB : iblk m c 2 t (ix2 (0 : Fin 1) j) = V m c main_v20 (ix2 (0 : Fin 1) j) := by
    show V m c main_v20 (((cfg0.win 2).blk t).view.emb (ix2 (0 : Fin 1) j)) = _
    refine congrArg (V m c main_v20) ?_
    funext a; apply Fin.ext
    match a with
    | ⟨0, _⟩ => show win0_2.index t (0 : Fin 2) * 1 + 1 * 0 = 0; omega
    | ⟨1, _⟩ => show win0_2.index t (1 : Fin 2) * 4096 + 1 * j.val = j.val; omega
  rw [hB]
  refine congrArg (fun s : EReal => s + V m c main_v20 (ix2 (0 : Fin 1) j)) ?_
  refine Finset.sum_congr rfl fun k _ => ?_
  rw [hW k]
  refine congrArg (fun z : Fin 64 → EReal => normed z k * V m c main_v15 (ix2 k j)) ?_
  funext k'
  exact hx k'

/-- An index of the array is in point `t`'s output block iff each coordinate is in the block's range on its axis. -/
theorem mem_blk (t : Fin cfg0.N) (i : S4x4096x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v21).slice (win0_3.rect t)).set ↔ _
  rw [View.set_slice_whole, Rect.mem_set_unit]
  exact Iff.rfl

/-- Every index of the output array lies in some point's block: the point of its slab and of its row's block of 512. -/
theorem cover (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-- The output array after the run is the whole-array function of the arrays the region found. -/
theorem final (c : Dev nD) :
    (dats m 0 c).arrAt 3 cfg0.N = outArr (V m c main_arg0) (V m c main_v15) (V m c main_v20) :=
  (dats m 0 c).arrAt_eq_of_cover 3 (outArr (V m c main_arg0) (V m c main_v15) (V m c main_v20))
    (fun t _ => flushed_eq m c t) cover

end Cert.KernelIdeal.WholeArray

end
-- ==== Proof.FoldedParams.lean ====
/-
  The folded parameters: the block-diagonal weight matrix and the bias row, as the host computes them before the
  pipelined region, read at an index.

  The matrix has rows indexed by the feature `k` and columns by the flat position `j = f * 64 + e`; its entry is
  `([k = f] * w (f, e)) * g k`: the diagonal indicator (a comparison of two index grids, converted to a float) times the
  projection weight, laid out flat, then scaled row by row. The bias row at `j` is the sum of the two bias tables at
  `(f, e)` plus the product of the shift row with the unscaled matrix, `∑ k, b k * ([k = f] * w (f, e))`.
-/
import proofs.«177353_j5446018531779_2_alg».proof.Proof.Gen.KernelIdeal
import proofs.«177353_j5446018531779_2_alg».proof.Proof.LibPlainDot
import proofs.«177353_j5446018531779_2_alg».proof.Proof.RowNormProj
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FoldedParams

open Cert.KernelIdeal Cert.KernelIdeal.Gen Idealize.ShloMosaic
open Idealize.ShloMosaic.ValueIdx Cert.RowNormProj

/-! ## The host operations' terms -/

/-- The diagonal indicator as a 64 × 64 float array: row grid plus zero, compared with the column grid, converted. -/
def eye : FVec Ideal S64x64 .f32 :=
  uitofp .f32 (cmpi .eq (addi (iotaInDim S64x64 32 0) (broadcastInDim S64x64 ![] bcast_S_S64x64 (constantI S_ 32 0#32)))
    (iotaInDim S64x64 32 1))

/-- The unscaled block-diagonal matrix, flat: `[k, f, e] ↦ eye (k, f) * w (f, e)` reshaped to `[k, f * 64 + e]`. -/
def flatW (w : FVec Ideal S64x64 .f32) : FVec Ideal S64x4096 .f32 :=
  shapeCast S64x4096
    (mulf (broadcastInDim S64x64x64 ![0, 1, 2] bcast_S64x64x1_S64x64x64_0_1_2
            (broadcastInDim S64x64x1 ![0, 1] bcast_S64x64_S64x64x1_0_1 eye))
          (broadcastInDim S64x64x64 ![0, 1, 2] bcast_S1x64x64_S64x64x64_0_1_2
            (broadcastInDim S1x64x64 ![1, 2] bcast_S64x64_S1x64x64_1_2 w)))
    shapeCasts_S64x64x64_S64x4096

/-- The matrix the region multiplies by: each row `k` of the flat matrix scaled by `g k` (the change of format is the
    identity on the extended reals). -/
def scaledW (g : FVec Ideal S64 .f32) (w : FVec Ideal S64x64 .f32) : FVec Ideal S64x4096 .bf16 :=
  truncf .bf16 (mulf (flatW w)
    (broadcastInDim S64x4096 ![0, 1] bcast_S64x1_S64x4096_0_1 (broadcastInDim S64x1 ![0] bcast_S64_S64x1_0 g))) bitsLt_bf16_f32

/-- The bias row the region adds. -/
def biasRow (b : FVec Ideal S64 .f32) (w pb emb : FVec Ideal S64x64 .f32) : FVec Ideal S1x4096 .f32 :=
  addf (shapeCast S1x4096 (addf pb emb) shapeCasts_S64x64_S1x4096)
    (Host.dotGeneral dot_S1x64_S64x4096_S1x4096_1_0_0_1_n_n none (shapeCast S1x64 b shapeCasts_S64_S1x64) (flatW w))

/-! ## Read at an index -/

/-- Two features below 64 have the same 32-bit word exactly when they are equal. -/
theorem word_eq_iff (k f : Fin 64) : BitVec.ofNat 32 k.val = BitVec.ofNat 32 f.val ↔ k = f := by
  constructor
  · intro h
    have h' := congrArg BitVec.toNat h
    simp only [BitVec.toNat_ofNat] at h'
    have hk := k.isLt
    have hf := f.isLt
    exact Fin.ext (by omega)
  · intro h; rw [h]

/-- The indicator array at `(k, f)` is one on the diagonal and zero off it. -/
theorem eye_apply (k f : Fin 64) : eye (ix2 k f) = diag k f := by
  show (((IntOp.cmpi .eq (IntOp.addi (BitVec.ofNat 32 k.val) 0#32) (BitVec.ofNat 32 f.val)).toNat : ℝ) : EReal) = _
  unfold diag
  by_cases h : k = f
  · subst h
    simp [IntOp.cmpi, IntOp.addi]
  · have hw : ¬ (BitVec.ofNat 32 k.val = BitVec.ofNat 32 f.val) := fun e => h ((word_eq_iff k f).1 e)
    simp [IntOp.cmpi, IntOp.addi, h, hw]

/-- The flat matrix at row `k`, column `j = f * 64 + e`. -/
theorem flatW_apply (w : FVec Ideal S64x64 .f32) (k f e : Fin 64) (j : Fin 4096) (hj : j.val = f.val * 64 + e.val) :
    flatW w (ix2 k j) = diag k f * w (ix2 f e) := by
  unfold flatW
  rw [shapeCast_apply _ shapeCasts_S64x64x64_S64x4096 (ix2 k j) (ix3 k f e) (by
    rw [Shape.rowMajor_val_three, Shape.rowMajor_val_two]
    show (k.val * 64 + f.val) * 64 + e.val = k.val * 4096 + j.val
    omega)]
  rw [mulf_apply]
  rw [broadcastInDim_apply _ bcast_S64x64x1_S64x64x64_0_1_2 _ (ix3 k f e) (ix3 k f (0 : Fin 1)) (fun a => match a with
    | ⟨0, _⟩ => by show k.val = if (64 : Nat) = 1 then 0 else k.val; rw [if_neg (by decide)]
    | ⟨1, _⟩ => by show f.val = if (64 : Nat) = 1 then 0 else f.val; rw [if_neg (by decide)]
    | ⟨2, _⟩ => by show 0 = if (1 : Nat) = 1 then 0 else e.val; rw [if_pos rfl])]
  rw [broadcastInDim_apply _ bcast_S64x64_S64x64x1_0_1 _ (ix3 k f (0 : Fin 1)) (ix2 k f) (fun a => match a with
    | ⟨0, _⟩ => by show k.val = if (64 : Nat) = 1 then 0 else k.val; rw [if_neg (by decide)]
    | ⟨1, _⟩ => by show f.val = if (64 : Nat) = 1 then 0 else f.val; rw [if_neg (by decide)])]
  rw [broadcastInDim_apply _ bcast_S1x64x64_S64x64x64_0_1_2 _ (ix3 k f e) (ix3 (0 : Fin 1) f e) (fun a => match a with
    | ⟨0, _⟩ => by show 0 = if (1 : Nat) = 1 then 0 else k.val; rw [if_pos rfl]
    | ⟨1, _⟩ => by show f.val = if (64 : Nat) = 1 then 0 else f.val; rw [if_neg (by decide)]
    | ⟨2, _⟩ => by show e.val = if (64 : Nat) = 1 then 0 else e.val; rw [if_neg (by decide)])]
  rw [broadcastInDim_apply _ bcast_S64x64_S1x64x64_1_2 _ (ix3 (0 : Fin 1) f e) (ix2 f e) (fun a => match a with
    | ⟨0, _⟩ => by show f.val = if (64 : Nat) = 1 then 0 else f.val; rw [if_neg (by decide)]
    | ⟨1, _⟩ => by show e.val = if (64 : Nat) = 1 then 0 else e.val; rw [if_neg (by decide)])]
  rw [eye_apply]

/-- The scaled matrix at row `k`, column `j = f * 64 + e`. -/
theorem scaledW_apply (g : FVec Ideal S64 .f32) (w : FVec Ideal S64x64 .f32) (k f e : Fin 64) (j : Fin 4096)
    (hj : j.val = f.val * 64 + e.val) :
    scaledW g w (ix2 k j) = (diag k f * w (ix2 f e)) * g (ix1 k) := by
  unfold scaledW
  rw [truncf_apply, mulf_apply, flatW_apply w k f e j hj]
  rw [broadcastInDim_apply _ bcast_S64x1_S64x4096_0_1 _ (ix2 k j) (ix2 k (0 : Fin 1)) (fun a => match a with
    | ⟨0, _⟩ => by show k.val = if (64 : Nat) = 1 then 0 else k.val; rw [if_neg (by decide)]
    | ⟨1, _⟩ => by show 0 = if (1 : Nat) = 1 then 0 else j.val; rw [if_pos rfl])]
  rw [broadcastInDim_apply _ bcast_S64_S64x1_0 _ (ix2 k (0 : Fin 1)) (ix1 k) (fun a => match a with
    | ⟨0, _⟩ => by show k.val = if (64 : Nat) = 1 then 0 else k.val; rw [if_neg (by decide)])]

/-- The bias row at column `j = f * 64 + e`. -/
theorem biasRow_apply (b : FVec Ideal S64 .f32) (w pb emb : FVec Ideal S64x64 .f32) (u : Fin 1) (f e : Fin 64) (j : Fin 4096)
    (hj : j.val = f.val * 64 + e.val) :
    biasRow b w pb emb (ix2 u j)
      = (pb (ix2 f e) + emb (ix2 f e)) + ∑ k : Fin 64, b (ix1 k) * (diag k f * w (ix2 f e)) := by
  unfold biasRow
  rw [addf_apply]
  rw [shapeCast_apply _ shapeCasts_S64x64_S1x4096 (ix2 u j) (ix2 f e) (by
    have hu : u.val = 0 := by omega
    rw [Shape.rowMajor_val_two, Shape.rowMajor_val_two]
    show f.val * 64 + e.val = u.val * 4096 + j.val
    omega)]
  rw [addf_apply]
  refine congrArg (fun s : EReal => (pb (ix2 f e) + emb (ix2 f e)) + s) ?_
  show FloatOps.dotGeneral (DotDims.plain 1 64 4096) none .single _ _ (ix2 u j) = _
  rw [Cert.LibPlainDot.dotGeneral_apply]
  refine Finset.sum_congr rfl fun k _ => ?_
  show shapeCast S1x64 b shapeCasts_S64_S1x64 (ix2 u k) * flatW w (ix2 k j) = _
  rw [shapeCast_a_1a_apply, flatW_apply w k f e j hj]

end Cert.KernelIdeal.FoldedParams

end
-- ==== Proof.RegionEntry.lean ====
/-
  What the pipelined region finds in the two arrays the host computed for it: the scaled block-diagonal matrix in the
  array its second window stages, the bias row in the array its third window stages, each as a function of the
  program's arguments.
-/
import proofs.«177353_j5446018531779_2_alg».proof.Proof.Gen.KernelIdeal.Frame
import proofs.«177353_j5446018531779_2_alg».proof.Proof.FoldedParams
import Idealize.ShloMosaic.Lib.StableHlo.Run

noncomputable section

namespace Cert.KernelIdeal.FoldedParams

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region finds the scaled matrix in the buffer its second window stages. -/
theorem V_matrix (c : Dev nD) :
    (V m c main_v15 : S64x4096.Idx → EReal)
      = scaledW (m ((c : Thread nD τ).loc main_arg1)) (m ((c : Thread nD τ).loc main_arg3)) := by
  dsimp only [V, hostOps0]
  after_results_simp
  rfl

set_option maxHeartbeats 2000000 in
/-- The region finds the bias row in the buffer its third window stages. -/
theorem V_bias (c : Dev nD) :
    (V m c main_v20 : S1x4096.Idx → EReal)
      = biasRow (m ((c : Thread nD τ).loc main_arg2)) (m ((c : Thread nD τ).loc main_arg3))
          (m ((c : Thread nD τ).loc main_arg4)) (m ((c : Thread nD τ).loc main_arg5)) := by
  dsimp only [V, hostOps0]
  after_results_simp
  rfl

end Cert.KernelIdeal.FoldedParams

end
-- ==== Proof.RefValue.lean ====
/-
  The reference's result at an index.

  The reference normalises each row of 64 features (mean, centring, mean square, offset, reciprocal square root), scales
  feature `f` by `g f`, shifts it by `b f`, multiplies by the weight `w (f, e)` and adds the two bias tables at
  `(f, e)`; the four-axis result is laid out flat, so that column `j = f * 64 + e` of row `(b, n)` holds entry
  `(b, n, f, e)`.
-/
import proofs.«177353_j5446018531779_2_alg».proof.Proof.Gen.ReferenceIdeal.Read
import proofs.«177353_j5446018531779_2_alg».proof.Proof.RowNormProj
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Cert.RowNormProj

variable (x0 : (⟨S4x4096x64, .f32⟩ : BufTy).Contents (Elt Ideal))

/-- Row `(b, n)` of the input, as a function of the feature. -/
def row (b : Fin 4) (n : Fin 4096) : Fin 64 → EReal := fun k => x0 (ix3 b n k)

/-- The row mean, kept as a column. -/
theorem mean_apply (b : Fin 4) (n : Fin 4096) (u : Fin 1) : val_main_v3 (F := Ideal) x0 (ix3 b n u) = mean (row x0 b n) := by
  have e1 : idx_main_v1 (ix3 b n u) = ix2 b n :=
    funext fun a => Fin.ext (by match a with | ⟨0, _⟩ => rfl | ⟨1, _⟩ => rfl)
  have e0 : ∀ k : Fin 64, idx_main_v0 (ix2 b n) k = ix3 b n k := fun k =>
    funext fun a => Fin.ext (by match a with | ⟨0, _⟩ => rfl | ⟨1, _⟩ => rfl | ⟨2, _⟩ => rfl)
  rw [val_main_v3_apply, val_main_v1_apply, e1, val_main_v0_apply, val_main_v2_apply, val_main_cst_0_apply, val_main_cst_apply]
  simp only [e0, Ideal.hostDivf_def, Ideal.ofBits_def, Ideal.ofBits_zero_f32, zero_add]
  rfl

/-- The centred entry (the subtraction the mean square uses). -/
theorem centred_apply (b : Fin 4) (n : Fin 4096) (k : Fin 64) : val_main_v5 (F := Ideal) x0 (ix3 b n k) = centred (row x0 b n) k := by
  have e4 : idx_main_v4 (ix3 b n k) = ix3 b n (0 : Fin 1) :=
    funext fun a => Fin.ext (by match a with | ⟨0, _⟩ => rfl | ⟨1, _⟩ => rfl | ⟨2, _⟩ => rfl)
  rw [val_main_v5_apply, val_main_v4_apply, e4, mean_apply]
  rfl

/-- The centred entry (the subtraction the normalised entry uses). -/
theorem centred_apply' (b : Fin 4) (n : Fin 4096) (k : Fin 64) : val_main_v12 (F := Ideal) x0 (ix3 b n k) = centred (row x0 b n) k := by
  have e11 : idx_main_v11 (ix3 b n k) = ix3 b n (0 : Fin 1) :=
    funext fun a => Fin.ext (by match a with | ⟨0, _⟩ => rfl | ⟨1, _⟩ => rfl | ⟨2, _⟩ => rfl)
  rw [val_main_v12_apply, val_main_v11_apply, e11, mean_apply]
  rfl

/-- The reciprocal standard deviation, kept as a column. -/
theorem invStd_apply (b : Fin 4) (n : Fin 4096) (u : Fin 1) : val_main_v15 (F := Ideal) x0 (ix3 b n u) = invStd (row x0 b n) := by
  have e8 : idx_main_v8 (ix3 b n u) = ix2 b n :=
    funext fun a => Fin.ext (by match a with | ⟨0, _⟩ => rfl | ⟨1, _⟩ => rfl)
  have e7 : ∀ k : Fin 64, idx_main_v7 (ix2 b n) k = ix3 b n k := fun k =>
    funext fun a => Fin.ext (by match a with | ⟨0, _⟩ => rfl | ⟨1, _⟩ => rfl | ⟨2, _⟩ => rfl)
  rw [val_main_v15_apply, val_main_v14_apply, val_main_v10_apply, val_main_v8_apply, e8, val_main_v7_apply, val_main_v9_apply,
    val_main_cst_2_apply, val_main_v13_apply, val_main_cst_3_apply, val_main_cst_1_apply]
  simp only [e7, val_main_v6_apply, centred_apply, Ideal.hostDivf_def, Ideal.hostUnary_rsqrt_def, Ideal.ofBits_def, Ideal.ofBits_zero_f32,
    zero_add, Ideal.addf_def, Ideal.mulf_def]
  rfl

/-- The normalised entry. -/
theorem normed_apply (b : Fin 4) (n : Fin 4096) (k : Fin 64) : val_main_v17 (F := Ideal) x0 (ix3 b n k) = normed (row x0 b n) k := by
  have e16 : idx_main_v16 (ix3 b n k) = ix3 b n (0 : Fin 1) :=
    funext fun a => Fin.ext (by match a with | ⟨0, _⟩ => rfl | ⟨1, _⟩ => rfl | ⟨2, _⟩ => rfl)
  rw [val_main_v17_apply, val_main_v16_apply, e16, centred_apply', invStd_apply]
  rfl

variable (x1 x2 : (⟨S64, .f32⟩ : BufTy).Contents (Elt Ideal)) (x3 x4 x5 : (⟨S64x64, .f32⟩ : BufTy).Contents (Elt Ideal))

/-- The reference's result at row `(b, n)`, column `j = f * 64 + e`. -/
theorem result_apply (b : Fin 4) (n : Fin 4096) (f e : Fin 64) (j : Fin 4096) (hj : j.val = f.val * 64 + e.val) :
    val_main_v33 (F := Ideal) x0 x1 x2 x3 x4 x5 (ix3 b n j)
      = direct (normed (row x0 b n)) (fun k => x1 (ix1 k)) (fun k => x2 (ix1 k)) (fun p q => x3 (ix2 p q))
          (fun p q => x4 (ix2 p q)) (fun p q => x5 (ix2 p q)) f e := by
  have e33 : idx_main_v33 (ix3 b n j) = ix4 b n f e := by
    have hb := b.isLt
    have hn := n.isLt
    have hf := f.isLt
    have he := e.isLt
    funext a
    apply Fin.ext
    match a with
    | ⟨0, _⟩ => show ((b.val * 4096 + n.val) * 4096 + j.val) / 16777216 = b.val; omega
    | ⟨1, _⟩ => show ((b.val * 4096 + n.val) * 4096 + j.val) / 4096 % 4096 = n.val; omega
    | ⟨2, _⟩ => show ((b.val * 4096 + n.val) * 4096 + j.val) / 64 % 64 = f.val; omega
    | ⟨3, _⟩ => show ((b.val * 4096 + n.val) * 4096 + j.val) % 64 = e.val; omega
  have e26 : idx_main_v26 (ix4 b n f e) = ix4 b n f (0 : Fin 1) :=
    funext fun a => Fin.ext (by match a with | ⟨0, _⟩ => rfl | ⟨1, _⟩ => rfl | ⟨2, _⟩ => rfl | ⟨3, _⟩ => rfl)
  have e24 : idx_main_v24 (ix4 b n f (0 : Fin 1)) = ix3 b n f :=
    funext fun a => Fin.ext (by match a with | ⟨0, _⟩ => rfl | ⟨1, _⟩ => rfl | ⟨2, _⟩ => rfl)
  have e19 : idx_main_v18 (idx_main_v19 (ix3 b n f)) = ix1 f :=
    funext fun a => Fin.ext (by match a with | ⟨0, _⟩ => rfl)
  have e22 : idx_main_v21 (idx_main_v22 (ix3 b n f)) = ix1 f :=
    funext fun a => Fin.ext (by match a with | ⟨0, _⟩ => rfl)
  have e27 : idx_main_v25 (idx_main_v27 (ix4 b n f e)) = ix2 f e :=
    funext fun a => Fin.ext (by match a with | ⟨0, _⟩ => rfl | ⟨1, _⟩ => rfl)
  have e31 : idx_main_v30 (idx_main_v31 (ix4 b n f e)) = ix2 f e :=
    funext fun a => Fin.ext (by match a with | ⟨0, _⟩ => rfl | ⟨1, _⟩ => rfl)
  rw [val_main_v33_apply, e33, val_main_v32_apply, val_main_v28_apply, val_main_v26_apply, e26, val_main_v24_apply, e24,
    val_main_v23_apply, val_main_v20_apply, normed_apply, val_main_v19_apply, val_main_v18_apply, e19, val_main_v22_apply,
    val_main_v21_apply, e22, val_main_v27_apply, val_main_v25_apply, e27, val_main_v31_apply, val_main_v30_apply, e31,
    val_main_v29_apply]
  rfl

end Cert.ReferenceIdeal.RefValue

end
-- ==== Proof.FiniteInputs.lean ====
/-
  The precondition read back: every entry of every input is a real number.

  The precondition is a conjunction, one conjunct per input, of "every entry's absolute value is below +∞". On the
  extended reals the absolute value `max x (-x)` is below `⊤` exactly when `x` is neither `⊤` nor `⊥`, that is, when
  `x` is a real.
-/
import proofs.«177353_j5446018531779_2_alg».proof.Pre_finite_inputs
import proofs.«177353_j5446018531779_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic Idealize.ShloMosaic.ValueIdx

instance subsingleton_scalar_idx : Subsingleton S_.Idx := ⟨fun a b => funext fun d => d.elim0⟩

/-- The pattern of +∞ denotes `⊤`. -/
theorem ofBits_inf : Ideal.ofBits .f32 0x7F800000#32 = ⊤ := by
  simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

/-- Under the precondition every entry of each of the six inputs is a real. -/
theorem all_real (x0 : FVec Ideal S4x4096x64 .f32) (x1 x2 : FVec Ideal S64 .f32) (x3 x4 x5 : FVec Ideal S64x64 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ix0
  dsimp only [fn, fn_part1] at h0
  obtain ⟨h01234, a5⟩ := IntOp.andi_eq_one.1 h0
  obtain ⟨h0123, a4⟩ := IntOp.andi_eq_one.1 h01234
  obtain ⟨h012, a3⟩ := IntOp.andi_eq_one.1 h0123
  obtain ⟨h01, a2⟩ := IntOp.andi_eq_one.1 h012
  obtain ⟨a0, a1⟩ := IntOp.andi_eq_one.1 h01
  exact ⟨fun i => real_of_abs_lt (x0 i) (Host.reduce_andi_all _ _ _ _ ix0 a0 i),
    fun i => real_of_abs_lt (x1 i) (Host.reduce_andi_all _ _ _ _ ix0 a1 i),
    fun i => real_of_abs_lt (x2 i) (Host.reduce_andi_all _ _ _ _ ix0 a2 i),
    fun i => real_of_abs_lt (x3 i) (Host.reduce_andi_all _ _ _ _ ix0 a3 i),
    fun i => real_of_abs_lt (x4 i) (Host.reduce_andi_all _ _ _ _ ix0 a4 i),
    fun i => real_of_abs_lt (x5 i) (Host.reduce_andi_all _ _ _ _ ix0 a5 i)⟩

end Cert.Pre_finite_inputs.Finite

end
-- ==== Proof.Bridge.lean ====
/-
  The two results are one function.

  At output index `(p, n, j)` with `j = f * 64 + e`, the pipelined program ends with the product of the normalised
  row `(p, n)` and column `j` of the scaled block-diagonal matrix, plus entry `j` of the folded bias row; the reference
  ends with `(z f * g f + b f) * w (f, e) + (pb (f, e) + emb (f, e))` for the same normalised row `z`. With every input
  entry a real (the precondition), the normalised entry is a real and the two agree: only the diagonal term of each
  sum survives, and distributivity joins what is left.
-/
import proofs.«177353_j5446018531779_2_alg».proof.Proof.WholeArray
import proofs.«177353_j5446018531779_2_alg».proof.Proof.RegionEntry
import proofs.«177353_j5446018531779_2_alg».proof.Proof.RefValue
import proofs.«177353_j5446018531779_2_alg».proof.Proof.FiniteInputs

noncomputable section

namespace Cert.Bridge

open Idealize.ShloMosaic Idealize.ShloMosaic.ValueIdx Cert.RowNormProj
open Cert.KernelIdeal.FoldedParams Cert.KernelIdeal.WholeArray

/-- The pipelined program's whole-array function, over the folded parameters of the arguments, is the reference's
    result, where every argument entry is a real. -/
theorem outArr_eq_reference (x0 : (⟨3, ![4, 4096, 64]⟩ : Shape).Idx → EReal) (x1 x2 : (⟨1, ![64]⟩ : Shape).Idx → EReal)
    (x3 x4 x5 : (⟨2, ![64, 64]⟩ : Shape).Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal)) :
    outArr x0 (scaledW x1 x3) (biasRow x2 x3 x4 x5)
      = Cert.ReferenceIdeal.Read.val_main_v33 (F := Ideal) x0 x1 x2 x3 x4 x5 := by
  funext i
  obtain ⟨p, n, j, rfl⟩ : ∃ (p : Fin 4) (n : Fin 4096) (j : Fin 4096), i = ix3 p n j := ⟨i 0, i 1, i 2, eq_ix3 i⟩
  have hj := j.isLt
  obtain ⟨f, e, hfe⟩ : ∃ (f e : Fin 64), j.val = f.val * 64 + e.val :=
    ⟨⟨j.val / 64, by omega⟩, ⟨j.val % 64, by omega⟩, by show j.val = j.val / 64 * 64 + j.val % 64; omega⟩
  rw [Cert.ReferenceIdeal.RefValue.result_apply x0 x1 x2 x3 x4 x5 p n f e j hfe]
  show outAt x0 (scaledW x1 x3) (biasRow x2 x3 x4 x5) p n j = _
  unfold outAt
  rw [biasRow_apply x2 x3 x4 x5 (0 : Fin 1) f e j hfe]
  simp only [scaledW_apply x1 x3 _ f e j hfe]
  choose r0 hr0 using h0
  have hrow : Cert.ReferenceIdeal.RefValue.row x0 p n = fun k => ((r0 (ix3 p n k) : ℝ) : EReal) := funext fun k => hr0 (ix3 p n k)
  exact blockDiag_eq_direct (normed (Cert.ReferenceIdeal.RefValue.row x0 p n)) (fun k => x1 (ix1 k)) (fun k => x2 (ix1 k))
    (fun a b => x3 (ix2 a b)) (fun a b => x4 (ix2 a b)) (fun a b => x5 (ix2 a b)) f e
    (by rw [hrow]; exact normed_real _ f) (h1 _) (h2 _) (h3 _) (h4 _) (h5 _)

end Cert.Bridge

end
-- ==== Proof.lean ====
/-
  A row-normalised input projected feature by feature, computed two ways.

  The input is `x : [4, 4096, 64]`. Each row of 64 features is normalised: centred by its mean and scaled by the
  reciprocal square root of its mean squared deviation plus a positive offset; call the result `z`. The output
  `[4, 4096, 4096]` holds at `(p, n, f * 64 + e)` the value `(z f * g f + b f) * w (f, e) + (pb (f, e) + emb (f, e))`.

  The reference computes exactly this. The pipelined program first folds the parameters: a block-diagonal matrix with
  entry `([k = f] * w (f, e)) * g k` at `(k, f * 64 + e)` and a bias row `(pb + emb) (f, e) + ∑ k, b k * ([k = f] * w (f, e))`;
  then, block of 512 rows by block, it normalises the rows, multiplies by the matrix and adds the bias row. On the
  extended reals a change of float format is the identity, a sum has no order, and a product with zero is zero, so
  only the diagonal term of each sum over `k` survives; what remains, `z f * (w * g f) + ((pb + emb) + b f * w)`, equals
  the reference's value by distributivity, which holds because every quantity is a real: the inputs by the
  precondition, and `z f` because the offset keeps the argument of the reciprocal square root positive.

  The three frames are the generated frame runs (the reference's is its generated run with the result dropped); the
  ideal pass rewrote nothing, so there is nothing to preserve.
-/
import proofs.«177353_j5446018531779_2_alg».proof.Defs
import proofs.«177353_j5446018531779_2_alg».proof.Proof.Gen.Kernel
import proofs.«177353_j5446018531779_2_alg».proof.Proof.Gen.Kernel.Skeleton
import proofs.«177353_j5446018531779_2_alg».proof.Proof.Gen.Kernel.Launch
import proofs.«177353_j5446018531779_2_alg».proof.Proof.Gen.Kernel.Points
import proofs.«177353_j5446018531779_2_alg».proof.Proof.Gen.Kernel.Frame
import proofs.«177353_j5446018531779_2_alg».proof.Proof.Gen.KernelIdeal
import proofs.«177353_j5446018531779_2_alg».proof.Proof.Gen.KernelIdeal.Skeleton
import proofs.«177353_j5446018531779_2_alg».proof.Proof.Gen.KernelIdeal.Launch
import proofs.«177353_j5446018531779_2_alg».proof.Proof.Gen.KernelIdeal.Points
import proofs.«177353_j5446018531779_2_alg».proof.Proof.Gen.KernelIdeal.Frame
import proofs.«177353_j5446018531779_2_alg».proof.Proof.Gen.ReferenceIdeal
import proofs.«177353_j5446018531779_2_alg».proof.Proof.Gen.Pre_finite_inputs
import proofs.«177353_j5446018531779_2_alg».proof.Proof.Gen.KernelIdeal.Value
import proofs.«177353_j5446018531779_2_alg».proof.Proof.Gen.ReferenceIdeal.Run
import proofs.«177353_j5446018531779_2_alg».proof.Proof.Gen.ReferenceIdeal.Read
import proofs.«177353_j5446018531779_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- Both programs end with the same output array: the pipelined program's is the whole-array function of the folded
    parameters (its blocks cover the array), the reference's is its run's term, and the two are one function of
    arguments that are real by the precondition. -/
theorem algebraic : Cert.algebraic_KernelIdeal_ReferenceIdeal := by
  intro m ρ m' ρ' hpre hagree
  refine ⟨fun c => Cert.KernelIdeal.WholeArray.outArr (Cert.KernelIdeal.Gen.V m c Cert.KernelIdeal.main_arg0)
    (Cert.KernelIdeal.Gen.V m c Cert.KernelIdeal.main_v15) (Cert.KernelIdeal.Gen.V m c Cert.KernelIdeal.main_v20), ?_, ?_⟩
  · exact (θ_run Cert.KernelIdeal.defs _ _).mono
      (fun r h c => ⟨(h c).1.trans (Cert.KernelIdeal.WholeArray.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2]
    obtain ⟨r0, r1, r2, r3, r4, r5⟩ := Cert.Pre_finite_inputs.Finite.all_real _ _ _ _ _ _ (hpre c)
    beta_reduce
    rw [Cert.KernelIdeal.Gen.V_main_arg0, Cert.KernelIdeal.FoldedParams.V_matrix, Cert.KernelIdeal.FoldedParams.V_bias]
    exact (Cert.Bridge.outArr_eq_reference _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
